-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S640x10000 : Shape := ⟨2, ![640, 10000]⟩
abbrev S640x128 : Shape := ⟨2, ![640, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S640x10000, .f32⟩
  | .local _ .vmem, ⟨1, _⟩ => ⟨S640x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S640x128, .f32⟩
  | .local _ .vmem, ⟨6, _⟩ => ⟨S640x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S640x10000_S640x10000_0_0 : ∀ a, (![0, 0] : Fin 2 → Nat) a + S640x10000.size a ≤ S640x10000.size a
  h_S640x10000 : 0 < S640x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S640x128 : S1x128.Broadcasts S640x128
  inb_S640x128_S640x128_0_0 : ∀ a, (![0, 0] : Fin 2 → Nat) a + S640x128.size a ≤ S640x128.size a
  h_S640x128 : 0 < S640x128.numel
  dot_S640x10000_S10000x128_S640x128_1_0_0_1_n_n_wf : DotDims.WF S640x10000 S10000x128 S640x128 [1] [0] [0] [1] [] []
  dot_S640x128_S128x128_S640x128_1_0_0_1_n_n_wf : DotDims.WF S640x128 S128x128 S640x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S640x10000.size a < S10000x10000.size a
  hwx0_0 : ∀ i : grid0.Coords, EltTy.bits .f32 = 32 ∨ (Rect.unit (s := S10000x10000) (fun a => cc0_transform_0 i a * S640x10000.size a) (fun a => (Pipeline.Clip.of (cc0_transform_0 i a) (S640x10000.size a) (S10000x10000.size a)).extent (S640x10000.size a)) fun a => Pipeline.Clip.inb (Pipeline.Clip.ok_of (hstart0_0 i a))).WholeWords (EltTy.packing .f32)
  hwxs0_0 : ∀ i : grid0.Coords, EltTy.bits .f32 = 32 ∨ (Rect.unit (s := S640x10000) (fun _ => 0) (fun a => (Pipeline.Clip.of (cc0_transform_0 i a) (S640x10000.size a) (S10000x10000.size a)).extent (S640x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S640x128.size a < S10000x128.size a
  hwx0_4 : ∀ i : grid0.Coords, EltTy.bits .f32 = 32 ∨ (Rect.unit (s := S10000x128) (fun a => cc0_transform_4 i a * S640x128.size a) (fun a => (Pipeline.Clip.of (cc0_transform_4 i a) (S640x128.size a) (S10000x128.size a)).extent (S640x128.size a)) fun a => Pipeline.Clip.inb (Pipeline.Clip.ok_of (hstart0_4 i a))).WholeWords (EltTy.packing .f32)
  hwxs0_4 : ∀ i : grid0.Coords, EltTy.bits .f32 = 32 ∨ (Rect.unit (s := S640x128) (fun _ => 0) (fun a => (Pipeline.Clip.of (cc0_transform_4 i a) (S640x128.size a) (S10000x128.size a)).extent (S640x128.size a)) fun a => (Nat.zero_add _).trans_le (Pipeline.Clip.extent_le (Pipeline.Clip.ok_of (hstart0_4 i a)))).WholeWords (EltTy.packing .f32)

variable [Facts₀]

def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf
def dot_S640x128_S128x128_S640x128_1_0_0_1_n_n : DotDims S640x128 S128x128 S640x128 where
  lhsContracting := [1]
  rhsContracting := [0]
  lhsNonContracting := [0]
  rhsNonContracting := [1]
  lhsBatch := []
  rhsBatch := []
  wf := dot_S640x128_S128x128_S640x128_1_0_0_1_n_n_wf

abbrev win0_0 : Pipeline.Window sig grid0 :=
  Pipeline.Window.ofSpecClip (Memref.whole main_arg1) S640x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S640x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KBody.lean ====
/-
  One grid step of the graph-convolution kernel, as a Hoare triple over its five staging buffers.

  The step reads a block of 640 rows of the adjacency matrix, the whole feature matrix, the whole weight matrix
  and the bias row; it forms (adjacency block · features) · weights + bias and writes the 640 × 128 result over
  the output buffer. Whatever the five buffers hold, the four inputs are left as they were and the output buffer
  ends holding exactly that expression of the four input contents. Nothing here depends on which arithmetic the
  numbers live in.
-/
import proofs.«112466_g82179904241989_cont_9to1_m_260_12_alg».proof.Proof.Gen.Kernel.Launch
import proofs.«112466_g82179904241989_cont_9to1_m_260_12_alg».proof.Proof.Gen.Kernel.Skeleton
import proofs.«112466_g82179904241989_cont_9to1_m_260_12_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-- The whole-buffer rectangles the step's loads and its one store go through. -/
abbrev rAdj : Rect S640x10000 := Rect.unit (s := S640x10000) ![0, 0] S640x10000.size inb_S640x10000_S640x10000_0_0
abbrev rFeat : Rect S10000x128 := Rect.unit (s := S10000x128) ![0, 0] S10000x128.size inb_S10000x128_S10000x128_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S640x128 := Rect.unit (s := S640x128) ![0, 0] S640x128.size inb_S640x128_S640x128_0_0

/-- What the output buffer holds after the step: its one store, of the step's expression of the four loads. -/
def stepOut (a : Vec F S640x10000 .f32) (x : Vec F S10000x128 .f32) (w : Vec F S128x128 .f32) (b : Vec F S1x128 .f32) :
    Vec F S640x128 .f32 :=
  View.canon [⟨rOut, k0_pay1 (View.ld a rAdj) (View.ld x rFeat) (View.ld w rWt) (View.ld b rBias)⟩]

/-- The one store covers the output buffer. -/
theorem stepOut_cover (p0 : Vec F S640x128 .f32) (y : S640x128.Idx) :
    ∃ pc ∈ ([⟨rOut, p0⟩] : List (View.Piece (Elt F) S640x128 .f32)), y ∈ pc.1.set :=
  View.cover_of_tiled [⟨rOut, p0⟩] S640x128.size (by rfl) y

set_option maxHeartbeats 1000000 in
/-- The step on whole staging buffers: the four inputs at any contents, the output at anything, run to the inputs
    unchanged and the output at `stepOut` of them. -/
theorem step_triple (c : Dev nD) (E : Set ℕ) (i : grid0.Coords)
    (arg1 : Memref sig .tc .vmem S640x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S640x128 .f32) (harg5 : arg5.IsWhole)
    (a : Vec F S640x10000 .f32) (x : Vec F S10000x128 .f32) (w : Vec F S128x128 .f32) (b : Vec F S1x128 .f32)
    (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (stepOut a x w b)) -∗ K ⟨⟩))
      ⊢ wp frame (wpE (defs₀ (F := F)) Variants.none c none) E
          (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stepOut_cover _)

/-- Read through whole-buffer rectangles, the store's expression is the step's expression of the buffers
    themselves. -/
theorem stepOut_eq (a : Vec F S640x10000 .f32) (x : Vec F S10000x128 .f32) (w : Vec F S128x128 .f32) (b : Vec F S1x128 .f32) :
    stepOut a x w b = k0_pay1 a x w b := by
  have hz : (![0, 0] : Fin 2 → Nat) = fun _ => 0 := funext fun a => by fin_cases a <;> rfl
  unfold stepOut
  rw [View.canon_unit_zero hz]
  simp only [View.ld_unit_zero (S := S640x10000) hz, View.ld_unit_zero (S := S10000x128) hz,
    View.ld_unit_zero (S := S128x128) hz, View.ld_unit_zero (S := S1x128) hz]

end Cert.Kernel.Body

end
-- ==== Proof.KFrame.lean ====
/-
  The frame of the word-level kernel: it terminates without a fault and leaves its four argument arrays unchanged.

  The frame says nothing about what the output array ends holding, so nothing is stated of what a step leaves in
  the output's staging buffer: that window is handed to the step at any contents and taken back at any contents.
  The four input windows are followed exactly — the adjacency block is fetched afresh at every step (its last block
  runs 240 rows past the matrix, and those staging rows hold values nothing determines), the features, the weights
  and the bias row are fetched once and found in place at every later step — and the step leaves all four as it
  found them. The argument holds in any arithmetic.
-/
import proofs.«112466_g82179904241989_cont_9to1_m_260_12_alg».proof.Proof.KBody
import proofs.«112466_g82179904241989_cont_9to1_m_260_12_alg».proof.Proof.Gen.Kernel.Frame

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen Cert.Kernel.Body
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window nothing is stated of: the output's. -/
abbrev forgetOut : Fin cfg0.W → Bool :=
  fun | 0 => false | 1 => false | 2 => false | 3 => false | 4 => true | ⟨_ + 5, h⟩ => absurd h (Nat.not_lt.2 (Nat.le_add_left _ _))

/-- The adjacency block of step t with its overhang filled with zero words. -/
def adjBlk (c : Dev nD) (t : Fin cfg0.N) : S640x10000.Idx → Elt F .f32 :=
  win0_0.fill (grid0.coords t) (fun _ => Scalar.ofBits .f32 0#32) (iblk m c 0 t)

/-- The proof data of the pipeline on one core: the arrays as the region finds them; after step t each input's
    buffer at its block; the output's entry is a placeholder nothing reads. -/
def dats (_ : Fin 1) (c : Dev nD) : Dat τ (Elt F) Unit ℕ (UR sig nD τ) ℕ cfg0 c where
  A w := V m c (Pipeline.arrRef spec0 w)
  after w t := match w with
    | ⟨0, _⟩ => adjBlk m c t
    | ⟨1, _⟩ => iblk m c 1 t
    | ⟨2, _⟩ => iblk m c 2 t
    | ⟨3, _⟩ => iblk m c 3 t
    | ⟨4, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = adjBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- The adjacency buffer is fetched at every step: the body finds the block, and anything in the overhang. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]
/-- The resident inputs hold their blocks at every step. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at step t: the output's buffer at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the adjacency buffer stated on its rows inside the matrix, the output's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (step_triple c Set.univ _ _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show win0_0.cut (grid0.coords t) (adjBlk m c t) = iblk m c 0 t from win0_0.cut_fill _ _ _]
    iexact H0
  isplitl [H1]; · iexact H1
  isplitl [H2]; · iexact H2
  isplitl [H3]; · iexact H3
  · iexists _; iexact H4

/-- The step's obligation to the pipeline with the output window forgotten, at every step. -/
theorem body_obligation (c : Dev nD) :
    BodyObligationLoose (dats m 0 c) (defs₀ (F := F)) Variants.none () Set.univ forgetOut := fun t => by
  rw [bigSep_W0, bigSep_W0]
  exact sound_body m c t

/-! ## The run and the frame -/

set_option backward.isDefEq.respectTransparency.types false in
/-- Every weakly fair execution of the program terminates, with every input array of the pipeline at its entry
    contents and every buffer the pipeline does not stage as the region found it. -/
theorem run_main : θ_run defs (onTc (τ := τ) (main (F := F))) (s₀ m ρ)
    (RDat.FramePost cfg0 (fun c => (dats m 0 c).toRForget forgetOut) (V m)) :=
  RDat.θ_run_frame cfgs (0 : Fin 1) launch0 defs₀ Variants.none (fun c => (dats m 0 c).toRForget forgetOut) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- An input window's array ends at what the region found there. -/
theorem kept_in (r : PUnit × MemSt nD τ sig (Elt F))
    (h : RDat.FramePost cfg0 (fun c => (dats m 0 c).toRForget forgetOut) (V m) r) (c : Dev nD) (w : Fin cfg0.W)
    (hin : (cfg0.win w).isOut = false) :
    r.2.mem ((cfg0.spec w).arr.view.loc (c.tc : Thread nD τ)) = V m c (Pipeline.arrRef spec0 w) := by
  have h1 := (h c).1 w
  rw [((dats m 0 c).toRForget forgetOut).ArrAt_in w hin] at h1
  exact h1.trans (A_eq m c w)

/-- The kernel terminates without a fault and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(kept_in m r h c 1 rfl).trans (V_main_arg0 m c),
     (kept_in m r h c 0 rfl).trans (V_main_arg1 m c),
     (kept_in m r h c 2 rfl).trans (V_main_arg2 m c),
     ((h c).2 main_arg3 (Pipeline.mem_restRefs_of main_arg3 (by decide) (by decide))).trans (V_main_arg3 m c)⟩)
    (run_main m ρ)

end Cert.Kernel.Data

end
-- ==== Proof.IBody.lean ====
/-
  One grid step of the graph-convolution kernel, as a Hoare triple over its five staging buffers.

  The step reads a block of 640 rows of the adjacency matrix, the whole feature matrix, the whole weight matrix
  and the bias row; it forms (adjacency block · features) · weights + bias and writes the 640 × 128 result over
  the output buffer. Whatever the five buffers hold, the four inputs are left as they were and the output buffer
  ends holding exactly that expression of the four input contents. Nothing here depends on which arithmetic the
  numbers live in.
-/
import proofs.«112466_g82179904241989_cont_9to1_m_260_12_alg».proof.Proof.Gen.KernelIdeal.Launch
import proofs.«112466_g82179904241989_cont_9to1_m_260_12_alg».proof.Proof.Gen.KernelIdeal.Skeleton
import proofs.«112466_g82179904241989_cont_9to1_m_260_12_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-- The whole-buffer rectangles the step's loads and its one store go through. -/
abbrev rAdj : Rect S640x10000 := Rect.unit (s := S640x10000) ![0, 0] S640x10000.size inb_S640x10000_S640x10000_0_0
abbrev rFeat : Rect S10000x128 := Rect.unit (s := S10000x128) ![0, 0] S10000x128.size inb_S10000x128_S10000x128_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S640x128 := Rect.unit (s := S640x128) ![0, 0] S640x128.size inb_S640x128_S640x128_0_0

/-- What the output buffer holds after the step: its one store, of the step's expression of the four loads. -/
def stepOut (a : Vec F S640x10000 .f32) (x : Vec F S10000x128 .f32) (w : Vec F S128x128 .f32) (b : Vec F S1x128 .f32) :
    Vec F S640x128 .f32 :=
  View.canon [⟨rOut, k0_pay1 (View.ld a rAdj) (View.ld x rFeat) (View.ld w rWt) (View.ld b rBias)⟩]

/-- The one store covers the output buffer. -/
theorem stepOut_cover (p0 : Vec F S640x128 .f32) (y : S640x128.Idx) :
    ∃ pc ∈ ([⟨rOut, p0⟩] : List (View.Piece (Elt F) S640x128 .f32)), y ∈ pc.1.set :=
  View.cover_of_tiled [⟨rOut, p0⟩] S640x128.size (by rfl) y

set_option maxHeartbeats 1000000 in
/-- The step on whole staging buffers: the four inputs at any contents, the output at anything, run to the inputs
    unchanged and the output at `stepOut` of them. -/
theorem step_triple (c : Dev nD) (E : Set ℕ) (i : grid0.Coords)
    (arg1 : Memref sig .tc .vmem S640x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S640x128 .f32) (harg5 : arg5.IsWhole)
    (a : Vec F S640x10000 .f32) (x : Vec F S10000x128 .f32) (w : Vec F S128x128 .f32) (b : Vec F S1x128 .f32)
    (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (stepOut a x w b)) -∗ K ⟨⟩))
      ⊢ wp frame (wpE (defs₀ (F := F)) Variants.none c none) E
          (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stepOut_cover _)

/-- Read through whole-buffer rectangles, the store's expression is the step's expression of the buffers
    themselves. -/
theorem stepOut_eq (a : Vec F S640x10000 .f32) (x : Vec F S10000x128 .f32) (w : Vec F S128x128 .f32) (b : Vec F S1x128 .f32) :
    stepOut a x w b = k0_pay1 a x w b := by
  have hz : (![0, 0] : Fin 2 → Nat) = fun _ => 0 := funext fun a => by fin_cases a <;> rfl
  unfold stepOut
  rw [View.canon_unit_zero hz]
  simp only [View.ld_unit_zero (S := S640x10000) hz, View.ld_unit_zero (S := S10000x128) hz,
    View.ld_unit_zero (S := S128x128) hz, View.ld_unit_zero (S := S1x128) hz]

end Cert.KernelIdeal.Body

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Payload.lean ====
/-
  The graph-convolution step's expression, read at one entry over the extended reals.

  For an adjacency block a (640 × 10000), features x (10000 × 128), weights w (128 × 128) and a bias row b (1 × 128),
  entry (p, q) of (a · x) · w + b is

      Σ_{k < 128} (Σ_{j < 10000} a[p, j] · x[j, k]) · w[k, q]  +  b[0, q].

  In particular row p of the result reads row p of the adjacency block and no other row of it.
-/
import proofs.«112466_g82179904241989_cont_9to1_m_260_12_alg».proof.Proof.Gen.KernelIdeal.Skeleton
import proofs.«112466_g82179904241989_cont_9to1_m_260_12_alg».proof.Proof.LibMatDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The dimension numbers of the first product (adjacency block · features) and of the second (· weights). -/
abbrev dAX : DotDims S640x10000 S10000x128 S640x128 := dot_S640x10000_S10000x128_S640x128_1_0_0_1_n_n
abbrev dSW : DotDims S640x128 S128x128 S640x128 := dot_S640x128_S128x128_S640x128_1_0_0_1_n_n

/-! Where each product's operand index maps read: the left operand at (row of the entry, contraction position), the
    right at (contraction position, column of the entry). -/

theorem dAX_l0 (i : S640x128.Idx) (q : dAX.contr.Idx) : (dAX.lhsIdx i q 0).val = (i 0).val := by
  unfold DotDims.lhsIdx
  rw [dif_neg (show ¬(0 : Fin S640x10000.rank) ∈ dAX.lhsBatch by decide), dif_pos (show (0 : Fin S640x10000.rank) ∈ dAX.lhsNonContracting by decide)]
  rfl
theorem dAX_l1 (i : S640x128.Idx) (q : dAX.contr.Idx) : (dAX.lhsIdx i q 1).val = (q ⟨0, by decide⟩).val :=
  dAX.lhsIdx_val_of_single rfl i q
theorem dAX_r0 (i : S640x128.Idx) (q : dAX.contr.Idx) : (dAX.rhsIdx i q 0).val = (q ⟨0, by decide⟩).val :=
  dAX.rhsIdx_val_of_single rfl i q
theorem dAX_r1 (i : S640x128.Idx) (q : dAX.contr.Idx) : (dAX.rhsIdx i q 1).val = (i 1).val := by
  unfold DotDims.rhsIdx
  rw [dif_neg (show ¬(1 : Fin S10000x128.rank) ∈ dAX.rhsBatch by decide), dif_pos (show (1 : Fin S10000x128.rank) ∈ dAX.rhsNonContracting by decide)]
  rfl

theorem dSW_l0 (i : S640x128.Idx) (q : dSW.contr.Idx) : (dSW.lhsIdx i q 0).val = (i 0).val := by
  unfold DotDims.lhsIdx
  rw [dif_neg (show ¬(0 : Fin S640x128.rank) ∈ dSW.lhsBatch by decide), dif_pos (show (0 : Fin S640x128.rank) ∈ dSW.lhsNonContracting by decide)]
  rfl
theorem dSW_l1 (i : S640x128.Idx) (q : dSW.contr.Idx) : (dSW.lhsIdx i q 1).val = (q ⟨0, by decide⟩).val :=
  dSW.lhsIdx_val_of_single rfl i q
theorem dSW_r0 (i : S640x128.Idx) (q : dSW.contr.Idx) : (dSW.rhsIdx i q 0).val = (q ⟨0, by decide⟩).val :=
  dSW.rhsIdx_val_of_single rfl i q
theorem dSW_r1 (i : S640x128.Idx) (q : dSW.contr.Idx) : (dSW.rhsIdx i q 1).val = (i 1).val := by
  unfold DotDims.rhsIdx
  rw [dif_neg (show ¬(1 : Fin S128x128.rank) ∈ dSW.rhsBatch by decide), dif_pos (show (1 : Fin S128x128.rank) ∈ dSW.rhsNonContracting by decide)]
  rfl

/-- Entry (p, k) of adjacency block · features. -/
theorem support_apply (a : FVec Ideal S640x10000 .f32) (x : FVec Ideal S10000x128 .f32) (p : Fin 640) (k : Fin 128) :
    matmul dAX none a x (constant (F := Ideal) S640x128 .f32 0x00000000#32) (ix2 p k)
      = ∑ j : Fin 10000, a (ix2 p j) * x (ix2 j k) :=
  mat_dot_zero dAX none rfl rfl dAX_l0 dAX_l1 dAX_r0 dAX_r1 a x p k

/-- Entry (p, q) of support · weights. -/
theorem project_apply (s : FVec Ideal S640x128 .f32) (w : FVec Ideal S128x128 .f32) (p : Fin 640) (q : Fin 128) :
    matmul dSW none s w (constant (F := Ideal) S640x128 .f32 0x00000000#32) (ix2 p q)
      = ∑ k : Fin 128, s (ix2 p k) * w (ix2 k q) :=
  mat_dot_zero dSW none rfl rfl dSW_l0 dSW_l1 dSW_r0 dSW_r1 s w p q

/-- The step's expression at entry (p, q). -/
theorem step_apply (a : Vec Ideal S640x10000 .f32) (x : Vec Ideal S10000x128 .f32) (w : Vec Ideal S128x128 .f32)
    (b : Vec Ideal S1x128 .f32) (p : Fin 640) (q : Fin 128) :
    k0_pay1 (F := Ideal) a x w b (ix2 p q)
      = (∑ k : Fin 128, (∑ j : Fin 10000, a (ix2 p j) * x (ix2 j k)) * w (ix2 k q)) + b (ix2 (0 : Fin 1) q) := by
  unfold k0_pay1
  refine (addf_apply _ _ (ix2 p q)).trans ?_
  refine congrArg₂ (· + ·) ?_ ?_
  · refine (project_apply _ w p q).trans ?_
    refine Finset.sum_congr rfl fun k _ => ?_
    exact congrArg (· * w (ix2 k q)) (support_apply a x p k)
  · refine (broadcastTo_1b_ab_apply _ _ p q).trans ?_
    rw [shapeCast_self]

/-- Row p of the result reads only row p of the adjacency block. -/
theorem step_row_local (a a' : Vec Ideal S640x10000 .f32) (x : Vec Ideal S10000x128 .f32) (w : Vec Ideal S128x128 .f32)
    (b : Vec Ideal S1x128 .f32) (p : Fin 640) (q : Fin 128) (h : ∀ j : Fin 10000, a (ix2 p j) = a' (ix2 p j)) :
    k0_pay1 (F := Ideal) a x w b (ix2 p q) = k0_pay1 (F := Ideal) a' x w b (ix2 p q) := by
  rw [step_apply, step_apply]
  simp only [h]

end Cert.KernelIdeal.Payload

end
-- ==== Proof.IData.lean ====
/-
  The idealized kernel's sixteen grid steps, over the extended reals.

  Step t stages rows 640·t … 640·t + 639 of the adjacency matrix; the last step's block runs 240 rows past the
  matrix's 10000 rows, and those staging rows hold values nothing determines. What each staging buffer holds after
  a step is named here: the adjacency block (its overhang filled with zeros), the features, the weights, the bias
  row, and for the output the step's expression of those four. A row of that expression reads only the same row of
  the adjacency block, so the output's rows inside the matrix do not depend on what fills the overhang — which is
  all the pipeline asks of a window whose last block is clipped. From this the run of the whole program follows,
  with every array named after it, and the program's frame.
-/
import proofs.«112466_g82179904241989_cont_9to1_m_260_12_alg».proof.Proof.IBody
import proofs.«112466_g82179904241989_cont_9to1_m_260_12_alg».proof.Proof.Payload
import proofs.«112466_g82179904241989_cont_9to1_m_260_12_alg».proof.Proof.Gen.KernelIdeal.Frame

set_option maxRecDepth 16384

noncomputable section

namespace Cert.KernelIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Body Cert.KernelIdeal.Payload Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## How the last block is clipped -/

/-- At every step the adjacency window and the output window keep the same number of rows (640, or 400 at the last
    step), and neither is clipped along its columns. -/
theorem clip_facts : ∀ t : Fin cfg0.N,
    win0_0.xsize (grid0.coords t) 0 = win0_4.xsize (grid0.coords t) 0
    ∧ win0_0.xsize (grid0.coords t) 1 = 10000 ∧ win0_4.xsize (grid0.coords t) 1 = 128 :=
  (by decide +kernel : ∀ t : Fin grid0.N, _)

/-- The rows of the step's result that lie inside the matrix do not depend on what fills the adjacency block's
    overhang: row p of the result reads row p of the block, which is inside the matrix when p is. -/
theorem cut_step_indep (t : Fin cfg0.N) (d d' : S640x10000.Idx → Elt Ideal .f32)
    (g : (win0_0.xblock (grid0.coords t)).Idx → Elt Ideal .f32)
    (x : Vec Ideal S10000x128 .f32) (w : Vec Ideal S128x128 .f32) (b : Vec Ideal S1x128 .f32) :
    win0_4.cut (grid0.coords t) (k0_pay1 (F := Ideal) (win0_0.fill (grid0.coords t) d g) x w b)
      = win0_4.cut (grid0.coords t) (k0_pay1 (F := Ideal) (win0_0.fill (grid0.coords t) d' g) x w b) := by
  obtain ⟨e0, e1, e2⟩ := clip_facts t
  funext j
  have hp : (j 0).val < 640 := Nat.lt_of_lt_of_le (j 0).isLt (win0_4.xsize_le (grid0.coords t) 0)
  have hq : (j 1).val < 128 := Nat.lt_of_lt_of_le (j 1).isLt (win0_4.xsize_le (grid0.coords t) 1)
  have hj : (win0_4.xinj (grid0.coords t) j : S640x128.Idx) = ix2 (⟨(j 0).val, hp⟩ : Fin 640) (⟨(j 1).val, hq⟩ : Fin 128) :=
    funext fun a => Fin.ext (by match a with | ⟨0, _⟩ => rfl | ⟨1, _⟩ => rfl)
  show k0_pay1 (F := Ideal) (win0_0.fill (grid0.coords t) d g) x w b (win0_4.xinj (grid0.coords t) j)
    = k0_pay1 (F := Ideal) (win0_0.fill (grid0.coords t) d' g) x w b (win0_4.xinj (grid0.coords t) j)
  rw [hj]
  refine step_row_local _ _ x w b _ _ fun j' => ?_
  have hm : win0_0.moved (grid0.coords t) (ix2 (⟨(j 0).val, hp⟩ : Fin 640) j') = true :=
    (win0_0.moved_iff _ _).mpr fun a => by
      match a with
      | ⟨0, _⟩ => show (j 0).val < win0_0.xsize (grid0.coords t) 0; rw [e0]; exact (j 0).isLt
      | ⟨1, _⟩ => show j'.val < win0_0.xsize (grid0.coords t) 1; rw [e1]; exact j'.isLt
  unfold Window.fill
  rw [dif_pos hm, dif_pos hm]

/-! ## What the staging buffers hold after each step -/

/-- The adjacency block of step t with its overhang filled with zeros. -/
def adjBlk (c : Dev nD) (t : Fin cfg0.N) : S640x10000.Idx → Elt Ideal .f32 :=
  win0_0.fill (grid0.coords t) (fun _ => FloatOps.ofBits (F := Ideal) FTy.f32 0#32) (iblk m c 0 t)

/-- The step's result on that block. -/
def outBlk (c : Dev nD) (t : Fin cfg0.N) : S640x128.Idx → Elt Ideal .f32 :=
  k0_pay1 (F := Ideal) (adjBlk m c t) (iblk m c 1 t) (iblk m c 2 t) (iblk m c 3 t)

/-- The proof data of the pipeline on one core: the arrays as the region finds them; after step t the adjacency
    buffer at the filled block, the three resident inputs at their blocks, the output buffer at the step's result. -/
def dats (_ : Fin 1) (c : Dev nD) : Dat τ (Elt Ideal) Unit ℕ (UR sig nD τ) ℕ cfg0 c where
  A w := V m c (Pipeline.arrRef spec0 w)
  after w t := match w with
    | ⟨0, _⟩ => adjBlk m c t
    | ⟨1, _⟩ => iblk m c 1 t
    | ⟨2, _⟩ => iblk m c 2 t
    | ⟨3, _⟩ => iblk m c 3 t
    | ⟨4, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = adjBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk m c t := by dsimp only [dats]

/-- The adjacency buffer is fetched at every step: the body finds the block, and anything in the overhang. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]
/-- The resident inputs hold their blocks at every step. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at step t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the two clipped windows' buffers stated on their rows inside the matrix only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        (win0_4.fill (grid0.coords t) d (win0_4.cut (grid0.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (step_triple c Set.univ _ _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show win0_0.cut (grid0.coords t) (adjBlk m c t) = iblk m c 0 t from win0_0.cut_fill _ _ _]
    iexact H0
  isplitl [H1]; · iexact H1
  isplitl [H2]; · iexact H2
  isplitl [H3]; · iexact H3
  · iexists (k0_pay1 (F := Ideal) (win0_0.fill (grid0.coords t) d0 (iblk m c 0 t)) (iblk m c 1 t) (iblk m c 2 t) (iblk m c 3 t))
    rw [stepOut_eq]
    have hrow : win0_4.cut (grid0.coords t) (k0_pay1 (F := Ideal) (win0_0.fill (grid0.coords t) d0 (iblk m c 0 t)) (iblk m c 1 t) (iblk m c 2 t) (iblk m c 3 t))
        = win0_4.cut (grid0.coords t) (outBlk m c t) :=
      cut_step_indep t d0 _ (iblk m c 0 t) (iblk m c 1 t) (iblk m c 2 t) (iblk m c 3 t)
    rw [win0_4.fill_congr_cut (grid0.coords t) hrow]
    iexact H4

/-- The step's obligation to the pipeline, at every step: from what it finds in the five buffers to what it must leave. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the program terminates, with every staged array at the contents the sixteen
    write-backs leave, computed from the data above, and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized kernel terminates without a fault and leaves its four argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Data

end
-- ==== Proof.Spec.lean ====
/-
  What both programs compute: one graph-convolution layer with a dense adjacency matrix.

  For features x (10000 × 128), adjacency adj (10000 × 10000), weights w (128 × 128) and bias b (128), entry (r, q)
  of (adj · x) · w + b, with the products associated exactly as written:

      Σ_{k < 128} (Σ_{j < 10000} adj[r, j] · x[j, k]) · w[k, q]  +  b[q].

  Both programs form the sums in this grouping, so no law of the extended reals beyond reading each product as
  its sum is used, and finiteness of the inputs is never needed.
-/
import Idealize.ShloMosaic.PureOps.Ideal
import Idealize.ShloMosaic.Lib.ValueIdx

noncomputable section

open scoped BigOperators

namespace Cert.GraphConv

open Idealize.ShloMosaic Idealize.ShloMosaic.ValueIdx

/-- Entry (r, q) of (adj · x) · w + b. -/
def entry (x : Vec Ideal ⟨2, ![10000, 128]⟩ .f32) (adj : Vec Ideal ⟨2, ![10000, 10000]⟩ .f32)
    (w : Vec Ideal ⟨2, ![128, 128]⟩ .f32) (b : Vec Ideal ⟨1, ![128]⟩ .f32) (r : Fin 10000) (q : Fin 128) : Elt Ideal .f32 :=
  (∑ k : Fin 128, (∑ j : Fin 10000, adj (ix2 r j) * x (ix2 j k)) * w (ix2 k q)) + b (ix1 q)

/-- The whole result array. -/
def layer (x : Vec Ideal ⟨2, ![10000, 128]⟩ .f32) (adj : Vec Ideal ⟨2, ![10000, 10000]⟩ .f32)
    (w : Vec Ideal ⟨2, ![128, 128]⟩ .f32) (b : Vec Ideal ⟨1, ![128]⟩ .f32) : Vec Ideal ⟨2, ![10000, 128]⟩ .f32 :=
  fun i => entry x adj w b ⟨(i 0).val, idx2_lt0 i⟩ ⟨(i 1).val, idx2_lt1 i⟩

theorem layer_apply (x : Vec Ideal ⟨2, ![10000, 128]⟩ .f32) (adj : Vec Ideal ⟨2, ![10000, 10000]⟩ .f32)
    (w : Vec Ideal ⟨2, ![128, 128]⟩ .f32) (b : Vec Ideal ⟨1, ![128]⟩ .f32) (r : Fin 10000) (q : Fin 128) :
    layer x adj w b (ix2 r q) = entry x adj w b r q := rfl

end Cert.GraphConv

end
-- ==== Proof.IValue.lean ====
/-
  What the idealized kernel leaves in its result array: the layer.

  Step t writes back the rows of its output block that lie inside the array — rows 640·t … 640·t + 639, or the
  last 400 rows at the last step. Entry (p, q) of the step's result is Σ_k (Σ_j a[p, j] · x[j, k]) · w[k, q] + b[0, q]
  with a the staged adjacency block; for a row inside the array a[p, j] is adj[640·t + p, j], the features and
  weights are staged whole, and the bias row is the bias vector laid out as one row by the host. So what step t
  writes back is block t of the layer. Row r of the array lies in block r / 640, so the sixteen blocks cover the
  array, and it ends holding the layer.
-/
import proofs.«112466_g82179904241989_cont_9to1_m_260_12_alg».proof.Proof.IData
import proofs.«112466_g82179904241989_cont_9to1_m_260_12_alg».proof.Proof.Spec
import Idealize.ShloMosaic.Lib.ValueLayout
import Idealize.ShloMosaic.Lib.StableHlo.Run

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Body Cert.KernelIdeal.Payload Cert.KernelIdeal.Data
open Cert.GraphConv Idealize.ShloMosaic.ValueIdx
open scoped BigOperators

variable (m : (ℓ : Loc nD τ sig) → Buf (Elt Ideal) ℓ) (ρ : Dev nD → PrngReg)

/-- The layer of the four argument arrays as launched. -/
def result (c : Dev nD) : Vec Ideal S10000x128 .f32 :=
  layer (m ((c : Thread nD τ).loc main_arg0)) (m ((c : Thread nD τ).loc main_arg1))
    (m ((c : Thread nD τ).loc main_arg2)) (m ((c : Thread nD τ).loc main_arg3))

/-! ## Where each window's block sits -/

/-- The adjacency and output blocks of step t start at row 640·t and column 0; the features, the weights and the
    bias row are staged whole at every step. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The output block of step t keeps the rows up to the array's end. -/
theorem rows_kept : ∀ t : Fin cfg0.N,
    t.val * 640 + win0_4.xsize (grid0.coords t) 0 = min ((t.val + 1) * 640) 10000 :=
  (by decide +kernel : ∀ t : Fin grid0.N, _)

/-! ## The staged blocks, read at an entry -/

/-- The staged adjacency block at a position inside the array is the adjacency matrix 640·t rows further down. -/
theorem adj_read (c : Dev nD) (t : Fin cfg0.N) (y : (win0_0.xblock (grid0.coords t)).Idx) (r j' : Fin 10000)
    (h0 : r.val = t.val * 640 + (y 0).val) (h1 : j'.val = (y 1).val) :
    iblk m c 0 t y = m ((c : Thread nD τ).loc main_arg1) (ix2 r j') := by
  obtain ⟨i0, i1, -⟩ := idx_facts t
  show V m c main_arg1 (((cfg0.win 0).blk t).view.emb y) = _
  rw [V_main_arg1]
  have h : ((cfg0.win 0).blk t).view.emb y = ix2 r j' := funext fun a => Fin.ext (by
    match a with
    | ⟨0, _⟩ => show win0_0.index t (0 : Fin 2) * 640 + 1 * (y 0).val = r.val; rw [i0]; omega
    | ⟨1, _⟩ => show win0_0.index t (1 : Fin 2) * 10000 + 1 * (y 1).val = j'.val; rw [i1]; omega)
  rw [h]

/-- The features are staged whole. -/
theorem feat_read (c : Dev nD) (t : Fin cfg0.N) (y : S10000x128.Idx) :
    iblk m c 1 t y = m ((c : Thread nD τ).loc main_arg0) y := by
  obtain ⟨-, -, i2, i3, -⟩ := idx_facts t
  show V m c main_arg0 (((cfg0.win 1).blk t).view.emb y) = _
  rw [V_main_arg0]
  have h : ((cfg0.win 1).blk t).view.emb y = y := funext fun a => Fin.ext (by
    match a with
    | ⟨0, _⟩ => show win0_1.index t (0 : Fin 2) * 10000 + 1 * (y 0).val = (y 0).val; rw [i2]; omega
    | ⟨1, _⟩ => show win0_1.index t (1 : Fin 2) * 128 + 1 * (y 1).val = (y 1).val; rw [i3]; omega)
  rw [h]

/-- The weights are staged whole. -/
theorem wt_read (c : Dev nD) (t : Fin cfg0.N) (y : S128x128.Idx) :
    iblk m c 2 t y = m ((c : Thread nD τ).loc main_arg2) y := by
  obtain ⟨-, -, -, -, i4, i5, -⟩ := idx_facts t
  show V m c main_arg2 (((cfg0.win 2).blk t).view.emb y) = _
  rw [V_main_arg2]
  have h : ((cfg0.win 2).blk t).view.emb y = y := funext fun a => Fin.ext (by
    match a with
    | ⟨0, _⟩ => show win0_2.index t (0 : Fin 2) * 128 + 1 * (y 0).val = (y 0).val; rw [i4]; omega
    | ⟨1, _⟩ => show win0_2.index t (1 : Fin 2) * 128 + 1 * (y 1).val = (y 1).val; rw [i5]; omega)
  rw [h]

/-- The bias row the region finds is the bias vector laid out as one row. -/
theorem bias_row (c : Dev nD) :
    (V m c main_v0 : S1x128.Idx → Elt Ideal .f32)
      = shapeCast S1x128 (m ((c : Thread nD τ).loc main_arg3)) shapeCasts_S128_S1x128 := by
  dsimp only [V, hostOps0]
  after_results
  rfl

/-- The staged bias row at column q is the bias at q. -/
theorem bias_read (c : Dev nD) (t : Fin cfg0.N) (q : Fin 128) :
    iblk m c 3 t (ix2 (0 : Fin 1) q) = m ((c : Thread nD τ).loc main_arg3) (ix1 q) := by
  obtain ⟨-, -, -, -, -, -, i6, i7, -⟩ := idx_facts t
  show V m c main_v0 (((cfg0.win 3).blk t).view.emb (ix2 (0 : Fin 1) q)) = _
  have h : ((cfg0.win 3).blk t).view.emb (ix2 (0 : Fin 1) q) = ix2 (0 : Fin 1) q := funext fun a => Fin.ext (by
    match a with
    | ⟨0, _⟩ => show win0_3.index t (0 : Fin 2) * 1 + 1 * 0 = 0; rw [i6]
    | ⟨1, _⟩ => show win0_3.index t (1 : Fin 2) * 128 + 1 * q.val = q.val; rw [i7]; omega)
  rw [h, bias_row]
  exact shapeCast_a_1a_apply _ _ (0 : Fin 1) q

/-! ## What a step writes back -/

/-- Step t writes back block t of the layer. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold outBlk adjBlk
  obtain ⟨i0, i1, i2, i3, i4, i5, i6, i7, i8, i9⟩ := idx_facts t
  obtain ⟨e0, e1, e2⟩ := clip_facts t
  have hx := rows_kept t
  funext j
  have hp : (j 0).val < 640 := Nat.lt_of_lt_of_le (j 0).isLt (win0_4.xsize_le (grid0.coords t) 0)
  have hq : (j 1).val < 128 := Nat.lt_of_lt_of_le (j 1).isLt (win0_4.xsize_le (grid0.coords t) 1)
  have hjx : (j 0).val < win0_4.xsize (grid0.coords t) 0 := (j 0).isLt
  have hr : t.val * 640 + (j 0).val < 10000 := by omega
  have hj : (win0_4.xinj (grid0.coords t) j : S640x128.Idx) = ix2 (⟨(j 0).val, hp⟩ : Fin 640) (⟨(j 1).val, hq⟩ : Fin 128) :=
    funext fun a => Fin.ext (by match a with | ⟨0, _⟩ => rfl | ⟨1, _⟩ => rfl)
  have hemb : ((cfg0.win 4).blk t).view.emb j
      = ix2 (⟨t.val * 640 + (j 0).val, hr⟩ : Fin 10000) (⟨(j 1).val, hq⟩ : Fin 128) := funext fun a => Fin.ext (by
    match a with
    | ⟨0, _⟩ => show win0_4.index t (0 : Fin 2) * 640 + 1 * (j 0).val = t.val * 640 + (j 0).val; rw [i8]; omega
    | ⟨1, _⟩ => show win0_4.index t (1 : Fin 2) * 128 + 1 * (j 1).val = (j 1).val; rw [i9]; omega)
  show k0_pay1 (F := Ideal) (win0_0.fill (grid0.coords t) (fun _ => FloatOps.ofBits (F := Ideal) FTy.f32 0#32) (iblk m c 0 t))
      (iblk m c 1 t) (iblk m c 2 t) (iblk m c 3 t) (win0_4.xinj (grid0.coords t) j)
    = result m c (((cfg0.win 4).blk t).view.emb j)
  rw [hj, hemb, step_apply]
  unfold result
  rw [layer_apply]
  unfold entry
  refine congrArg₂ (· + ·) (Finset.sum_congr rfl fun k _ => congrArg₂ (· * ·)
    (Finset.sum_congr rfl fun j' _ => congrArg₂ (· * ·) ?_ ?_) ?_) ?_
  · have hm : win0_0.moved (grid0.coords t) (ix2 (⟨(j 0).val, hp⟩ : Fin 640) j') = true :=
      (win0_0.moved_iff _ _).mpr fun a => by
        match a with
        | ⟨0, _⟩ => show (j 0).val < win0_0.xsize (grid0.coords t) 0; rw [e0]; exact (j 0).isLt
        | ⟨1, _⟩ => show j'.val < win0_0.xsize (grid0.coords t) 1; rw [e1]; exact j'.isLt
    unfold Window.fill
    rw [dif_pos hm]
    exact adj_read m c t _ _ j' rfl rfl
  · exact feat_read m c t (ix2 j' k)
  · exact wt_read m c t (ix2 k (⟨(j 1).val, hq⟩ : Fin 128))
  · exact bias_read m c t (⟨(j 1).val, hq⟩ : Fin 128)

/-! ## The blocks cover the array -/

/-- An entry of the array is in step t's block iff its row is among the block's rows inside the array. -/
theorem mem_blk (t : Fin cfg0.N) (i : S10000x128.Idx) :
    i ∈ ((cfg0.win 4).blk t).view.set ↔ ∀ a : Fin 2, win0_4.index t a * S640x128.size a ≤ (i a).val
      ∧ (i a).val < win0_4.index t a * S640x128.size a + win0_4.xsize (grid0.coords t) a := by
  show i ∈ ((View.whole main_v1).slice (win0_4.rect t)).set ↔ _
  rw [View.set_slice_whole, Rect.mem_set_unit]
  exact Iff.rfl

/-- Row r lies in block r / 640. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : grid0.N = 16 := N_0
  have ht : (i 0).val / 640 < grid0.N := by rw [hN]; omega
  refine ⟨⟨(i 0).val / 640, ht⟩, flush0_4 _, ?_⟩
  rw [mem_blk]
  obtain ⟨-, -, -, -, -, -, -, -, i8, i9⟩ := idx_facts ⟨(i 0).val / 640, ht⟩
  obtain ⟨-, -, e2⟩ := clip_facts ⟨(i 0).val / 640, ht⟩
  have hx := rows_kept ⟨(i 0).val / 640, ht⟩
  intro a
  match a with
  | ⟨0, _⟩ =>
    show win0_4.index ⟨(i 0).val / 640, ht⟩ (0 : Fin 2) * 640 ≤ (i 0).val
      ∧ (i 0).val < win0_4.index ⟨(i 0).val / 640, ht⟩ (0 : Fin 2) * 640 + win0_4.xsize (grid0.coords ⟨(i 0).val / 640, ht⟩) 0
    rw [i8]
    show (i 0).val / 640 * 640 ≤ (i 0).val ∧ (i 0).val < (i 0).val / 640 * 640 + win0_4.xsize (grid0.coords ⟨(i 0).val / 640, ht⟩) 0
    have hx' : (i 0).val / 640 * 640 + win0_4.xsize (grid0.coords ⟨(i 0).val / 640, ht⟩) 0 = min (((i 0).val / 640 + 1) * 640) 10000 := hx
    omega
  | ⟨1, _⟩ =>
    show win0_4.index ⟨(i 0).val / 640, ht⟩ (1 : Fin 2) * 128 ≤ (i 1).val
      ∧ (i 1).val < win0_4.index ⟨(i 0).val / 640, ht⟩ (1 : Fin 2) * 128 + win0_4.xsize (grid0.coords ⟨(i 0).val / 640, ht⟩) 1
    rw [i9, e2]; omega

/-! ## The array after the run -/

/-- The result array ends holding the layer. -/
theorem final (c : Dev nD) : (dats m 0 c).arrAt 4 cfg0.N = result m c :=
  (dats m 0 c).arrAt_eq_of_cover 4 (result m c) (fun t _ => flushed_eq m c t) cover

/-- Every weakly fair execution of the idealized kernel terminates with the result array at the layer of the
    arguments and the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 4).trans (final m c),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c)⟩)
    (run_main m ρ)

end Cert.KernelIdeal.Final

end
-- ==== Proof.RefSide.lean ====
/-
  The reference computes the layer.

  The reference program is two host matrix products, a broadcast of the bias over the rows, and an addition. Read
  at an entry (r, q) over the extended reals it is Σ_k (Σ_j adj[r, j] · x[j, k]) · w[k, q] + b[q]: each product
  is its sum over the contracted axis, the broadcasts read the bias at q, and the sums are grouped as in the
  specification.
-/
import proofs.«112466_g82179904241989_cont_9to1_m_260_12_alg».proof.Proof.Gen.ReferenceIdeal.Read
import proofs.«112466_g82179904241989_cont_9to1_m_260_12_alg».proof.Proof.Spec

noncomputable section

open scoped BigOperators

namespace Cert.ReferenceIdeal.RefValue

open Cert.ReferenceIdeal Cert.ReferenceIdeal.Read Cert.GraphConv Idealize.ShloMosaic Idealize.ShloMosaic.ValueIdx

/-- The reference's result, as a function of its four arguments, is the layer. -/
theorem ref_is_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v4 (F := Ideal) x0 x1 x2 x3 = layer x0 x1 x2 x3 := by
  funext i
  have e1 : ∀ (k : Fin 128) (j : Fin 10000),
      lidx_main_v0 (lidx_main_v1 i k) j = ix2 (⟨(i 0).val, idx2_lt0 i⟩ : Fin 10000) j :=
    fun k j => funext fun a => Fin.ext (by match a with | ⟨0, _⟩ => rfl | ⟨1, _⟩ => rfl)
  have e2 : ∀ (k : Fin 128) (j : Fin 10000), ridx_main_v0 (lidx_main_v1 i k) j = ix2 j k :=
    fun k j => funext fun a => Fin.ext (by match a with | ⟨0, _⟩ => rfl | ⟨1, _⟩ => rfl)
  have e3 : ∀ k : Fin 128, ridx_main_v1 i k = ix2 k (⟨(i 1).val, idx2_lt1 i⟩ : Fin 128) :=
    fun k => funext fun a => Fin.ext (by match a with | ⟨0, _⟩ => rfl | ⟨1, _⟩ => rfl)
  have e4 : idx_main_v2 (idx_main_v3 i) = ix1 (⟨(i 1).val, idx2_lt1 i⟩ : Fin 128) :=
    funext fun a => Fin.ext (by match a with | ⟨0, _⟩ => rfl)
  rw [val_main_v4_apply, val_main_v1_apply, val_main_v3_apply, val_main_v2_apply]
  unfold layer entry
  simp only [val_main_v0_apply, e1, e2, e3, e4, Ideal.addf_def]

end Cert.ReferenceIdeal.RefValue

end
-- ==== Proof.lean ====
/-
  A graph-convolution layer with a dense adjacency matrix, out = (adj · x) · w + b over f32[10000, 10000],
  f32[10000, 128], f32[128, 128] and f32[128]: a kernel that walks the adjacency matrix in sixteen blocks of 640
  rows, against the two host matrix products, the broadcast and the addition of the reference.

  Over the extended reals both programs compute, at entry (r, q),

      Σ_{k < 128} (Σ_{j < 10000} adj[r, j] · x[j, k]) · w[k, q]  +  b[q],

  with the sums grouped the same way, so the two results are equal entry by entry for every input; finiteness of
  the inputs is not used. The kernel's sixteenth block runs 240 rows past the matrix: the staging rows there hold
  values nothing determines, a row of the step's result reads only the same row of the adjacency block, and the
  write-back keeps only the rows inside the array — so those values never reach the result.

  The three frames: the word-level kernel's holds in any arithmetic and says nothing of the output's contents;
  the idealized kernel's is read off the run that names its result; the reference's is its run with the result
  dropped. The idealization rewrote no operation, so there is nothing to preserve.
-/
import proofs.«112466_g82179904241989_cont_9to1_m_260_12_alg».proof.Defs
import proofs.«112466_g82179904241989_cont_9to1_m_260_12_alg».proof.Proof.Gen.Kernel
import proofs.«112466_g82179904241989_cont_9to1_m_260_12_alg».proof.Proof.Gen.KernelIdeal
import proofs.«112466_g82179904241989_cont_9to1_m_260_12_alg».proof.Proof.Gen.ReferenceIdeal
import proofs.«112466_g82179904241989_cont_9to1_m_260_12_alg».proof.Proof.Gen.Pre_finite_inputs
import proofs.«112466_g82179904241989_cont_9to1_m_260_12_alg».proof.Proof.KFrame
import proofs.«112466_g82179904241989_cont_9to1_m_260_12_alg».proof.Proof.IValue
import proofs.«112466_g82179904241989_cont_9to1_m_260_12_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Data.frame (F := Bits) m ρ

/-- So does the idealized kernel. -/
theorem frame_kernelIdeal : Cert.frame_KernelIdeal := fun m ρ _ => Cert.KernelIdeal.Data.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the idealized kernel and the reference both end with the layer of the arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_layer,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
